-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S50257x2048 : Shape := ⟨2, ![50257, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S50257x2048 : S_.BroadcastsInDim S50257x2048 (![] : Fin 0 → Fin S50257x2048.rank)
  reducesTo_S50257x2048_S_d0_1 : S50257x2048.ReducesTo [0, 1] S_

variable [Facts]

def fn {F : FTy → Type} [FloatOps F] (main_arg0 : FVec F S2x2048x2048 .f32) (main_arg1 : FVec F S50257x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S50257x2048 .f32 := Host.absf main_arg1
  let main_cst_0 : FVec F S_ .f32 := constant S_ .f32 0x7F800000#32
  let main_v5 : FVec F S50257x2048 .f32 := broadcastInDim S50257x2048 ![] bcast_S_S50257x2048 main_cst_0
  let main_v6 : IVec S50257x2048 1 := cmpf .olt main_v4 main_v5
  let main_c_1 : IVec S_ 1 := constantI S_ 1 1#1
  let main_v7 : IVec S_ 1 := (fun x v => Host.reduce IntOp.andi x v reducesTo_S50257x2048_S_d0_1 h_S_) main_v6 main_c_1
  let main_v8 : IVec S_ 1 := andi main_v3 main_v7
  main_v8
-- ==== Kernel.lean ====
abbrev S2x2048x2048 : Shape := ⟨3, ![2, 2048, 2048]⟩
abbrev S50257x2048 : Shape := ⟨2, ![50257, 2048]⟩
abbrev S_ : Shape := ⟨0, ![]⟩
abbrev S1x1 : Shape := ⟨2, ![1, 1]⟩
abbrev S4096x2048 : Shape := ⟨2, ![4096, 2048]⟩
abbrev S4096x50257 : Shape := ⟨2, ![4096, 50257]⟩
abbrev S512x2048 : Shape := ⟨2, ![512, 2048]⟩
abbrev S4096x512 : Shape := ⟨2, ![4096, 512]⟩
abbrev S2x2048x50257 : Shape := ⟨3, ![2, 2048, 50257]⟩

abbrev nBuf : Space → Nat
  | .hbm => 14
  | .vmem => 6
  | .smem => 0
  | _ => 0

abbrev bufTy : (tb : Table) → Fin (tcTables nBuf tb) → BufTy
  | .hbm, ⟨0, _⟩ => ⟨S2x2048x2048, .f32⟩
  | .hbm, ⟨1, _⟩ => ⟨S50257x2048, .f32⟩
  | .hbm, ⟨2, _⟩ => ⟨S50257x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S4096x2048, .f32⟩
  | .hbm, ⟨11, _⟩ => ⟨S4096x2048, .bf16⟩
  | .hbm, ⟨12, _⟩ => ⟨S4096x50257, .f32⟩
  | .hbm, ⟨13, _⟩ => ⟨S2x2048x50257, .f32⟩
  | .local _ .vmem, ⟨0, _⟩ => ⟨S1x1, .f32⟩
  | .local _ .vmem, ⟨1, _⟩ => ⟨S4096x2048, .bf16⟩
  | .local _ .vmem, ⟨2, _⟩ => ⟨S512x2048, .f32⟩
  | .local _ .vmem, ⟨3, _⟩ => ⟨S512x2048, .f32⟩
  | .local _ .vmem, ⟨4, _⟩ => ⟨S4096x512, .f32⟩
  | .local _ .vmem, ⟨5, _⟩ => ⟨S4096x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![99], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S50257x2048_S_d0_1 : S50257x2048.ReducesTo [0, 1] S_
  h_S_ : 0 < S_.numel
  shapeCasts_S_S1x1 : S_.ShapeCasts S1x1
  shapeCasts_S2x2048x2048_S4096x2048 : S2x2048x2048.ShapeCasts S4096x2048
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x2048_S512x2048_0_0 : ∀ a, (![0, 0] : Fin 2 → Nat) a + S512x2048.size a ≤ S512x2048.size a
  h_S512x2048 : 0 < S512x2048.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S4096x512_S4096x512_0_0 : ∀ a, (![0, 0] : Fin 2 → Nat) a + S4096x512.size a ≤ S4096x512.size a
  h_S4096x512 : 0 < S4096x512.numel
  shapeCasts_S4096x50257_S2x2048x50257 : S4096x50257.ShapeCasts S2x2048x50257
  dot_S4096x2048_S512x2048_S4096x512_1_1_0_0_n_n_wf : DotDims.WF S4096x2048 S512x2048 S4096x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x2048.size a < S50257x2048.size a
  hwx0_2 : ∀ i : grid0.Coords, EltTy.bits .f32 = 32 ∨ (Rect.unit (s := S50257x2048) (fun a => cc0_transform_2 i a * S512x2048.size a) (fun a => (Pipeline.Clip.of (cc0_transform_2 i a) (S512x2048.size a) (S50257x2048.size a)).extent (S512x2048.size a)) fun a => Pipeline.Clip.inb (Pipeline.Clip.ok_of (hstart0_2 i a))).WholeWords (EltTy.packing .f32)
  hwxs0_2 : ∀ i : grid0.Coords, EltTy.bits .f32 = 32 ∨ (Rect.unit (s := S512x2048) (fun _ => 0) (fun a => (Pipeline.Clip.of (cc0_transform_2 i a) (S512x2048.size a) (S50257x2048.size a)).extent (S512x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x512.size a < S4096x50257.size a
  hwx0_3 : ∀ i : grid0.Coords, EltTy.bits .f32 = 32 ∨ (Rect.unit (s := S4096x50257) (fun a => cc0_transform_3 i a * S4096x512.size a) (fun a => (Pipeline.Clip.of (cc0_transform_3 i a) (S4096x512.size a) (S4096x50257.size a)).extent (S4096x512.size a)) fun a => Pipeline.Clip.inb (Pipeline.Clip.ok_of (hstart0_3 i a))).WholeWords (EltTy.packing .f32)
  hwxs0_3 : ∀ i : grid0.Coords, EltTy.bits .f32 = 32 ∨ (Rect.unit (s := S4096x512) (fun _ => 0) (fun a => (Pipeline.Clip.of (cc0_transform_3 i a) (S4096x512.size a) (S4096x50257.size a)).extent (S4096x512.size a)) fun a => (Nat.zero_add _).trans_le (Pipeline.Clip.extent_le (Pipeline.Clip.ok_of (hstart0_3 i a)))).WholeWords (EltTy.packing .f32)

variable [Facts₀]

def dot_S4096x2048_S512x2048_S4096x512_1_1_0_0_n_n : DotDims S4096x2048 S512x2048 S4096x512 where
  lhsContracting := [1]
  rhsContracting := [1]
  lhsNonContracting := [0]
  rhsNonContracting := [0]
  lhsBatch := []
  rhsBatch := []
  wf := dot_S4096x2048_S512x2048_S4096x512_1_1_0_0_n_n_wf

abbrev win0_0 : Pipeline.Window sig grid0 :=
  Pipeline.Window.ofSpec (Memref.whole main_v4) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S512x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v7) S4096x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x2048 : Shape := ⟨3, ![2, 2048, 2048]⟩
abbrev S50257x2048 : Shape := ⟨2, ![50257, 2048]⟩
abbrev S_ : Shape := ⟨0, ![]⟩
abbrev S2x2048x50257 : Shape := ⟨3, ![2, 2048, 50257]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S50257x2048, .f32⟩
  | .hbm, ⟨2, _⟩ => ⟨S50257x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S50257x2048, .f32⟩
  | .hbm, ⟨10, _⟩ => ⟨S50257x2048, .f32⟩
  | .hbm, ⟨11, _⟩ => ⟨S50257x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S50257x2048, .f32⟩
  | .hbm, ⟨16, _⟩ => ⟨S50257x2048, .f32⟩
  | .hbm, ⟨17, _⟩ => ⟨S_, .f32⟩
  | .hbm, ⟨18, _⟩ => ⟨S50257x2048, .f32⟩
  | .hbm, ⟨19, _⟩ => ⟨S50257x2048, .f32⟩
  | .hbm, ⟨20, _⟩ => ⟨S50257x2048, .f32⟩
  | .hbm, ⟨21, _⟩ => ⟨S50257x2048, .f32⟩
  | .hbm, ⟨22, _⟩ => ⟨S2x2048x50257, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S50257x2048_S_d0_1 : S50257x2048.ReducesTo [0, 1] S_
  h_S_ : 0 < S_.numel
  bcast_S_S50257x2048 : S_.BroadcastsInDim S50257x2048 (![] : Fin 0 → Fin S50257x2048.rank)
  dot_S2x2048x2048_S50257x2048_S2x2048x50257_2_1_01_0_n_n_wf : DotDims.WF S2x2048x2048 S50257x2048 S2x2048x50257 [2] [1] [0, 1] [0] [] []

variable [Facts₀]

def dot_S2x2048x2048_S50257x2048_S2x2048x50257_2_1_01_0_n_n : DotDims S2x2048x2048 S50257x2048 S2x2048x50257 where
  lhsContracting := [2]
  rhsContracting := [1]
  lhsNonContracting := [0, 1]
  rhsNonContracting := [0]
  lhsBatch := []
  rhsBatch := []
  wf := dot_S2x2048x2048_S50257x2048_S2x2048x50257_2_1_01_0_n_n_wf

class Facts : Prop extends Facts₀ where

variable [Facts]
-- ==== Proof.KernelBody.lean ====
/-
  One grid point of the kernel, as a triple: the body loads the scale's one word, the whole weight tile and the whole
  activation matrix from their staging buffers, and stores into the result's staging buffer the product of the
  activations with the quantised tile (the skeleton's one payload). The three inputs' buffers are left as found.
-/
import proofs.«137710_j77464030151266_1_alg».proof.Proof.Gen.Kernel.Frame
import proofs.«137710_j77464030151266_1_alg».proof.Proof.Gen.Kernel.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a rank-2 access, however spelt. -/
theorem zero2 : (![0, 0] : Fin 2 → Nat) = fun _ => 0 := funext fun a => by fin_cases a <;> rfl

set_option maxHeartbeats 2000000 in
/-- The body on whole staging memrefs — the scale's at `x0`, the activations' at `x1`, the weight tile's at `x2`, the
    result's at anything — runs to the continuation holding the three inputs' as they were and the result's at the
    payload of the three: every access is the whole buffer, so each load reads the contents and the one store
    leaves its payload. -/
theorem sound_kernel (c : Dev nD) (E : Set ℕ) (i : grid0.Coords)
    (arg1 : Memref sig .tc .vmem S1x1 .f32) (harg1 : arg1.IsWhole)
    (arg2 : Memref sig .tc .vmem S4096x2048 .bf16) (harg2 : arg2.IsWhole)
    (arg3 : Memref sig .tc .vmem S512x2048 .f32) (harg3 : arg3.IsWhole)
    (arg4 : Memref sig .tc .vmem S4096x512 .f32) (harg4 : arg4.IsWhole)
    (x0 : Vec F S1x1 .f32) (x1 : Vec F S4096x2048 .bf16) (x2 : Vec F S512x2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x2 x1)) -∗ K ⟨⟩))
      ⊢ wp frame (wpE (defs₀ (F := F)) Variants.none c none) E (cc0__bitlinear_kernel i arg1 harg1 arg2 harg2 arg3 harg3 arg4 harg4) K := by
  simp only [cc0__bitlinear_kernel_eq_skeleton]; unfold cc0__bitlinear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hcov : ∀ (w : S4096x512.Idx → Elt F .f32) (y : S4096x512.Idx),
      ∃ pc ∈ ([⟨Rect.unit (s := S4096x512) ![0, 0] S4096x512.size inb_S4096x512_S4096x512_0_0, w⟩] :
        List (View.Piece (Elt F) S4096x512 .f32)), y ∈ pc.1.set :=
    fun w y => ⟨_, List.mem_singleton_self _,
      View.mem_set_unit_zero (S := S4096x512) zero2 inb_S4096x512_S4096x512_0_0 y⟩
  rw [View.read_writes_eq_canon _ _ _ (hcov _), View.canon_unit_zero zero2]
  simp only [View.readAt_eq_ld]
  rw [View.ld_unit_zero (S := S1x1) zero2, View.ld_unit_zero (S := S512x2048) zero2, View.ld_unit_zero (S := S4096x2048) zero2]

end Cert.Kernel.Gen

end
-- ==== Proof.KernelRun.lean ====
/-
  The kernel's frame at the machine's words.

  At the word level the matrix unit's product is not read column by column, so nothing is said here of what the
  result's staging buffer holds: the result window is handed to the body at any contents and taken back at any
  contents. What the frame needs is kept: the scale's word and the activation matrix stay in their buffers, the
  weight tile's buffer holds the matrix's rows on the rows that exist, and no argument array is ever written —
  the weights are an input window's array, the activations are touched by no window and by no host line after the
  region.
-/
import proofs.«137710_j77464030151266_1_alg».proof.Proof.KernelBody
import proofs.«137710_j77464030151266_1_alg».proof.Proof.Gen.Kernel.Points

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window is forgotten: nothing is named of what the body leaves in it. -/
def forgets : Fin 4 → Bool := fun w => w.val == 3

/-- The weight tile at point `t` as named after the body: the matrix's rows on the rows that exist, the zero word
    past the matrix's end. -/
def wtile (c : Dev nD) (t : Fin cfg0.N) : S512x2048.Idx → Elt F .f32 :=
  win0_2.fill (grid0.coords t) (fun _ => Scalar.ofBits .f32 0#32) (iblk m c 2 t)

/-- The proof data on core `c`: the arrays as the region finds them; after the body the three inputs' buffers at
    their blocks (the tile's filled out with zeros), the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wtile m c t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wtile m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The tile's buffer was just fetched: the matrix's rows on the rows that exist, anything (`d`) past them. -/
theorem before0_2 (c : Dev nD) (t : Fin cfg0.N) (d) :
    (dats m 0 c).before 2 t d = win0_2.fill (grid0.coords t) d (iblk m c 2 t) := by
  unfold Dat.before
  rw [if_pos (fetch0_2 t)]
  unfold Dat.fetched Dat.blockOf iblk
  rw [A_eq]

/-! ## The body obligation -/

/-- What the body is called with at point `t`, the windows one by one (the result's at any contents), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns: the tile's buffer stated on the rows that exist only, the result's at any contents. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel (F := F) c Set.univ (grid0.coords t) _ _ _ _ _ _ _ _
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]; · rw [after0_1]; iexact H1
  isplitl [H2]
  · iexists d2
    rw [after0_2, show win0_2.cut (grid0.coords t) (wtile m c t) = iblk m c 2 t from win0_2.cut_fill _ _ _]
    iexact H2
  · iexists _; iexact H3

theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The buffers the host lines after the region write: the reshaped result. -/
def tailWrites : Finset (Ref sig .tc) := {main_v8}

set_option backward.isDefEq.respectTransparency.types false in
theorem run_main : θ_run defs (onTc (τ := τ) (main (F := F))) (s₀ m ρ)
    (Pipeline.RDat.FramePostR (cfgs 0) (fun c => (dats m 0 c).toRForget forgets) tailWrites (V m)) :=
  Pipeline.RDat.θ_run_frame_around_T cfgs (0 : Fin 1) launch0 defs₀ Variants.none
    (fun c => (dats m 0 c).toRForget forgets) tailWrites m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := fun ops hops op hop b hb => by
      simp only [List.mem_cons, List.mem_nil_iff, or_false] at hops
      subst hops
      simp only [hostOps1, List.mem_cons, List.mem_nil_iff, or_false] at hop
      subst hop
      simp only [StableHlo.reshape_writes, Finset.mem_singleton] at hb
      by_contra hne
      exact StableHlo.devRef_ne_of_ne (fun e => hne (by rw [e]; exact Finset.mem_singleton_self _)) hb)
    (hmain := hmain m Variants.none) (hA := A_eq m) (hΦ := fun _ _ => rfl)

/-- The frame: the weights are an input window's array, which the pipeline never writes; the activations are no
    window's array and no host line after the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans
        (V_main_arg0 m c),
      (Eq.mp (congrFun (((dats m 0 c).toRForget forgets).ArrAt_in 2 rfl _) _) ((h c).1 2)).trans
        ((A_eq m c 2).trans (V_main_arg1 m c))⟩) (run_main m ρ)

end Cert.Kernel.Run

end
-- ==== Proof.IdealBody.lean ====
/-
  One grid point of the kernel, as a triple: the body loads the scale's one word, the whole weight tile and the whole
  activation matrix from their staging buffers, and stores into the result's staging buffer the product of the
  activations with the quantised tile (the skeleton's one payload). The three inputs' buffers are left as found.
-/
import proofs.«137710_j77464030151266_1_alg».proof.Proof.Gen.KernelIdeal.Frame
import proofs.«137710_j77464030151266_1_alg».proof.Proof.Gen.KernelIdeal.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a rank-2 access, however spelt. -/
theorem zero2 : (![0, 0] : Fin 2 → Nat) = fun _ => 0 := funext fun a => by fin_cases a <;> rfl

set_option maxHeartbeats 2000000 in
/-- The body on whole staging memrefs — the scale's at `x0`, the activations' at `x1`, the weight tile's at `x2`, the
    result's at anything — runs to the continuation holding the three inputs' as they were and the result's at the
    payload of the three: every access is the whole buffer, so each load reads the contents and the one store
    leaves its payload. -/
theorem sound_kernel (c : Dev nD) (E : Set ℕ) (i : grid0.Coords)
    (arg1 : Memref sig .tc .vmem S1x1 .f32) (harg1 : arg1.IsWhole)
    (arg2 : Memref sig .tc .vmem S4096x2048 .bf16) (harg2 : arg2.IsWhole)
    (arg3 : Memref sig .tc .vmem S512x2048 .f32) (harg3 : arg3.IsWhole)
    (arg4 : Memref sig .tc .vmem S4096x512 .f32) (harg4 : arg4.IsWhole)
    (x0 : Vec F S1x1 .f32) (x1 : Vec F S4096x2048 .bf16) (x2 : Vec F S512x2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x2 x1)) -∗ K ⟨⟩))
      ⊢ wp frame (wpE (defs₀ (F := F)) Variants.none c none) E (cc0__bitlinear_kernel i arg1 harg1 arg2 harg2 arg3 harg3 arg4 harg4) K := by
  simp only [cc0__bitlinear_kernel_eq_skeleton]; unfold cc0__bitlinear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hcov : ∀ (w : S4096x512.Idx → Elt F .f32) (y : S4096x512.Idx),
      ∃ pc ∈ ([⟨Rect.unit (s := S4096x512) ![0, 0] S4096x512.size inb_S4096x512_S4096x512_0_0, w⟩] :
        List (View.Piece (Elt F) S4096x512 .f32)), y ∈ pc.1.set :=
    fun w y => ⟨_, List.mem_singleton_self _,
      View.mem_set_unit_zero (S := S4096x512) zero2 inb_S4096x512_S4096x512_0_0 y⟩
  rw [View.read_writes_eq_canon _ _ _ (hcov _), View.canon_unit_zero zero2]
  simp only [View.readAt_eq_ld]
  rw [View.ld_unit_zero (S := S1x1) zero2, View.ld_unit_zero (S := S512x2048) zero2, View.ld_unit_zero (S := S4096x2048) zero2]

end Cert.KernelIdeal.Gen

end
-- ==== Proof.Spec.lean ====
/-
  The function both programs compute, over the extended reals.

  With `γ = max (Σ |w| / N, ε)` (the mean absolute weight, floored at `ε`; `N` and `ε` the programs' own two
  literals) and the ternary quantisation `q γ a = min 1 (max (-1) (roundeven (a / γ))) · γ`, the result at
  `(b, s, v)` is `Σ_k x[b, s, k] · q γ w[v, k]`: a row of `x` against a quantised row of `w`. Only the order of
  the sum and the layout of the operands differ between the two programs, so no algebraic law beyond
  re-indexing a finite sum is needed, and no finiteness of the inputs.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The activations `x`, [2, 2048, 2048]. -/
abbrev SX : Shape := ⟨3, ![2, 2048, 2048]⟩
/-- The weights `w`, [50257, 2048]. -/
abbrev SW : Shape := ⟨2, ![50257, 2048]⟩
/-- The result, [2, 2048, 50257]. -/
abbrev SO : Shape := ⟨3, ![2, 2048, 50257]⟩
/-- The scalar shape. -/
abbrev S0 : Shape := ⟨0, ![]⟩

/-- The scale as the host computes it: the sum of `|w|` over the whole matrix, divided by the element count
    (the literal `0x4CC45100`), floored at the literal `0x3727C5AC`. A rank-0 array. -/
def gamArr (hr : SW.ReducesTo [0, 1] S0) (h0 : 0 < S0.numel) (w : FVec Ideal SW .f32) : FVec Ideal S0 .f32 :=
  maximumf (Host.divf (Host.reduceAdd (Host.absf w) (constant (F := Ideal) S0 .f32 0x00000000#32) hr h0)
    (constant (F := Ideal) S0 .f32 0x4CC45100#32)) (constant (F := Ideal) S0 .f32 0x3727C5AC#32)

/-- The scale `γ`, a number. -/
def gam (hr : SW.ReducesTo [0, 1] S0) (h0 : 0 < S0.numel) (w : FVec Ideal SW .f32) : EReal := gamArr hr h0 w ix0

/-- The ternary quantisation of one weight `a` at scale `g`: `min 1 (max (-1) (roundeven (a / g))) · g`. -/
def qv (g a : EReal) : EReal :=
  FloatOps.mulf (F := Ideal) (φ := .f32)
    (FloatOps.minimumf (F := Ideal) (φ := .f32) (Ideal.ofBits .f32 0x3F800000#32)
      (FloatOps.maximumf (F := Ideal) (φ := .f32) (Ideal.ofBits .f32 0xBF800000#32)
        (FloatOps.roundeven (F := Ideal) (φ := .f32) (FloatOps.divf (F := Ideal) (φ := .f32) a g)))) g

/-- The result: entry `(b, s, v)` is the sum over `k` of `x[b, s, k]` times the quantised `w[v, k]`. -/
def G (hr : SW.ReducesTo [0, 1] S0) (h0 : 0 < S0.numel) (x : FVec Ideal SX .f32) (w : FVec Ideal SW .f32) :
    FVec Ideal SO .f32 := fun i =>
  ∑ k : Fin 2048, x (ix3 (i 0) (i 1) k) * qv (gam hr h0 w) (w (ix2 (i 2) k))

end Cert.Spec

end
-- ==== Proof.PayAt.lean ====
/-
  The body's one payload, read at an entry, at the extended reals.

  The payload is the matrix product of the activation matrix (4096 × 2048) with the quantised weight tile
  (512 × 2048), contracted along the 2048 columns of both, into a zero accumulator. Its entry `(p, q)` is therefore
  `Σ_k x[p, k] · quant(γ, w[q, k])`, where `γ` is the scale's one word: column `q` of the result reads row `q` of the
  tile and no other. That last fact is what lets the last, overhanging tile be handled: the columns inside the array
  read only the rows inside the array.
-/
import proofs.«137710_j77464030151266_1_alg».proof.Proof.Gen.KernelIdeal.Skeleton
import proofs.«137710_j77464030151266_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

local notation "dotK" => dot_S4096x2048_S512x2048_S4096x512_1_1_0_0_n_n

variable [Cert.KernelIdeal.Facts]

/-- The product's left operand index at output entry `j` and contraction index `q`: row `j 0`, column `q`. -/
theorem lhs0 (j : S4096x512.Idx) (q : (dotK).contr.Idx) : ((dotK).lhsIdx j q 0).val = (j 0).val := by
  unfold DotDims.lhsIdx
  rw [dif_neg (show ¬(0 : Fin S4096x2048.rank) ∈ (dotK).lhsBatch by decide),
    dif_pos (show (0 : Fin S4096x2048.rank) ∈ (dotK).lhsNonContracting by decide)]
  rfl
theorem lhs1 (j : S4096x512.Idx) (q : (dotK).contr.Idx) : ((dotK).lhsIdx j q 1).val = (q ⟨0, by decide⟩).val :=
  (dotK).lhsIdx_val_of_single rfl j q
/-- The right operand index: row `j 1` of the tile, column `q`. -/
theorem rhs0 (j : S4096x512.Idx) (q : (dotK).contr.Idx) : ((dotK).rhsIdx j q 0).val = (j 1).val := by
  unfold DotDims.rhsIdx
  rw [dif_neg (show ¬(0 : Fin S512x2048.rank) ∈ (dotK).rhsBatch by decide),
    dif_pos (show (0 : Fin S512x2048.rank) ∈ (dotK).rhsNonContracting by decide)]
  rfl
theorem rhs1 (j : S4096x512.Idx) (q : (dotK).contr.Idx) : ((dotK).rhsIdx j q 1).val = (q ⟨0, by decide⟩).val :=
  (dotK).rhsIdx_val_of_single rfl j q

/-- A product into the zero accumulator, read at entry `(p, q)`: the sum over the shared column `k` of the left
    operand at `(p, k)` times the right operand at `(q, k)`. -/
theorem matmul_at (l : FVec Ideal S4096x2048 .bf16) (r : FVec Ideal S512x2048 .bf16) (p : Fin 4096) (q : Fin 512) :
    matmul (F := Ideal) dotK none l r (constant (F := Ideal) S4096x512 .f32 0x00000000#32) (ix2 p q)
      = ∑ k : Fin 2048, l (ix2 p k) * r (ix2 q k) := by
  simp only [matmul]
  rw [Ideal.matmul_constant_zero_apply, ← Equiv.sum_comp (contrEquiv1 dotK 2048 rfl rfl).symm]
  refine Finset.sum_congr rfl fun k _ => ?_
  have hk := contrEquiv1_symm_val dotK 2048 rfl rfl k
  have el : (dotK).lhsIdx (ix2 p q) ((contrEquiv1 dotK 2048 rfl rfl).symm k) = ix2 p k := funext fun a => Fin.ext (by
    match a with
    | ⟨0, _⟩ => exact lhs0 _ _
    | ⟨1, _⟩ => exact (lhs1 _ _).trans hk)
  have er : (dotK).rhsIdx (ix2 p q) ((contrEquiv1 dotK 2048 rfl rfl).symm k) = ix2 q k := funext fun a => Fin.ext (by
    match a with
    | ⟨0, _⟩ => exact rhs0 _ _
    | ⟨1, _⟩ => exact (rhs1 _ _).trans hk)
  rw [el, er]

/-- The payload at entry `(p, q)`: the activations' row `p` against the quantised row `q` of the tile, at the scale
    the one-word buffer holds. -/
theorem pay_at (x0 : Vec Ideal S1x1 .f32) (x2 : Vec Ideal S512x2048 .f32) (x1 : Vec Ideal S4096x2048 .bf16)
    (p : Fin 4096) (q : Fin 512) :
    k0_pay1 (F := Ideal) x0 x2 x1 (ix2 p q)
      = ∑ k : Fin 2048, x1 (ix2 p k) * Cert.Spec.qv (x0 (ix2 0 0)) (x2 (ix2 q k)) := by
  unfold k0_pay1
  refine (matmul_at _ _ p q).trans ?_
  refine Finset.sum_congr rfl fun k _ => ?_
  have e0 : extractAt ![0, 0] x0 inpos_S1x1_p0_0 = x0 (ix2 0 0) :=
    congrArg x0 (funext fun a => by match a with | ⟨0, _⟩ => rfl | ⟨1, _⟩ => rfl)
  rw [shapeCast_self, e0]
  rfl

/-- Column `q` of the payload reads row `q` of the tile only: two tiles that agree on row `q` give the same
    entries in column `q`. -/
theorem pay_congr_row (x0 : Vec Ideal S1x1 .f32) (x2 x2' : Vec Ideal S512x2048 .f32) (x1 : Vec Ideal S4096x2048 .bf16)
    (p : Fin 4096) (q : Fin 512) (h : ∀ k : Fin 2048, x2 (ix2 q k) = x2' (ix2 q k)) :
    k0_pay1 (F := Ideal) x0 x2 x1 (ix2 p q) = k0_pay1 (F := Ideal) x0 x2' x1 (ix2 p q) := by
  rw [pay_at, pay_at]
  exact Finset.sum_congr rfl fun k _ => by rw [h k]

/-- The same over a whole leading range of columns: two tiles that agree on their first `n` rows give the same
    entries in the first `n` columns. -/
theorem pay_cut_congr (x0 : Vec Ideal S1x1 .f32) (x1 : Vec Ideal S4096x2048 .bf16) (X X' : Vec Ideal S512x2048 .f32) (n : Nat)
    (h : ∀ (q : Fin 512) (k : Fin 2048), q.val < n → X (ix2 q k) = X' (ix2 q k))
    (i : S4096x512.Idx) (hi : (i 1).val < n) :
    k0_pay1 (F := Ideal) x0 X x1 i = k0_pay1 (F := Ideal) x0 X' x1 i := by
  obtain ⟨p, q, rfl⟩ : ∃ (p : Fin 4096) (q : Fin 512), i = ix2 p q := ⟨i 0, i 1, eq_ix2 i⟩
  exact pay_congr_row x0 X X' x1 p q fun k => h q k hi

end Cert.KernelIdeal.PayAt

end
-- ==== Proof.IdealRun.lean ====
/-
  The idealized kernel's run, with every array after it named.

  The grid has 99 points; point `t` fetches the weight rows `512·t ‥ 512·t + 511` (the last point only the 81 rows
  that exist: the tile overhangs the matrix), keeps the scale's word and the activation matrix resident, and writes
  back the result's columns `512·t ‥` (again only the 81 that exist at the last point). After the body the result's
  staging buffer holds the product of the activations with the quantised tile. On the columns inside the array this
  does not depend on what the tile's buffer holds past the matrix's end, because column `q` reads row `q` only; so the
  proof data names the tile with zeros there, and the body obligation is met whatever the buffer held.
-/
import proofs.«137710_j77464030151266_1_alg».proof.Proof.IdealBody
import proofs.«137710_j77464030151266_1_alg».proof.Proof.PayAt
import proofs.«137710_j77464030151266_1_alg».proof.Proof.Gen.KernelIdeal.Points

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks' extents over the grid -/

/-- At every point: the weight tile is cut on its rows only, the result's block on its columns only, and to the
    same extent — the rows (columns) `512·t ‥` that exist, 512 of them or, at the last point, 81. -/
theorem extents : ∀ t : Fin cfg0.N,
    win0_2.xsize (grid0.coords t) 1 = 2048 ∧ win0_3.xsize (grid0.coords t) 0 = 4096
      ∧ win0_2.xsize (grid0.coords t) 0 = min 512 (50257 - t.val * 512)
      ∧ win0_3.xsize (grid0.coords t) 1 = min 512 (50257 - t.val * 512) :=
  (by decide +kernel : ∀ t : Fin grid0.N,
    win0_2.xsize (grid0.coords t) 1 = 2048 ∧ win0_3.xsize (grid0.coords t) 0 = 4096
      ∧ win0_2.xsize (grid0.coords t) 0 = min 512 (50257 - t.val * 512)
      ∧ win0_3.xsize (grid0.coords t) 1 = min 512 (50257 - t.val * 512))

/-! ## The proof data -/

/-- The weight tile at point `t` as named after the body: the matrix's rows on the rows that exist, zero past the
    matrix's end. -/
def wtile (c : Dev nD) (t : Fin cfg0.N) : S512x2048.Idx → Elt Ideal .f32 :=
  win0_2.fill (grid0.coords t) (fun _ => FloatOps.ofBits (F := Ideal) .f32 0#32) (iblk m c 2 t)

/-- The proof data on core `c`: the arrays as the region finds them; after the body at point `t` the scale's and the
    activations' buffers at their blocks, the tile's at `wtile`, the result's at the payload of the three. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wtile m c t
    | ⟨3, _⟩ => k0_pay1 (iblk m c 0 t) (wtile m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wtile m c t := by dsimp only [dats]
theorem after0_3 (c : Dev nD) (t : Fin cfg0.N) :
    (dats m 0 c).after 3 t = k0_pay1 (iblk m c 0 t) (wtile m c t) (iblk m c 1 t) := by dsimp only [dats]

/-- The scale's and the activations' buffers hold their blocks at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The tile's buffer was just fetched: the matrix's rows on the rows that exist, anything (`d`) past them. -/
theorem before0_2 (c : Dev nD) (t : Fin cfg0.N) (d) :
    (dats m 0 c).before 2 t d = win0_2.fill (grid0.coords t) d (iblk m c 2 t) := by
  unfold Dat.before
  rw [if_pos (fetch0_2 t)]
  unfold Dat.fetched Dat.blockOf iblk
  rw [A_eq]
/-- The result's buffer holds anything: it was written back at the point before. -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body obligation -/

/-- On a column inside the array the payload does not see what the tile's buffer holds past the matrix's end. -/
theorem cut_pay (c : Dev nD) (t : Fin cfg0.N) (x0 : Vec Ideal S1x1 .f32) (x1 : Vec Ideal S4096x2048 .bf16)
    (d d' : S512x2048.Idx → Elt Ideal .f32) :
    win0_3.cut (grid0.coords t) (k0_pay1 x0 (win0_2.fill (grid0.coords t) d (iblk m c 2 t)) x1)
      = win0_3.cut (grid0.coords t) (k0_pay1 x0 (win0_2.fill (grid0.coords t) d' (iblk m c 2 t)) x1) := by
  funext j
  obtain ⟨e1, e0, e2, e3⟩ := extents t
  exact PayAt.pay_cut_congr x0 x1 _ _ (win0_2.xsize (grid0.coords t) 0) (fun q k hq => by
      have hm : win0_2.moved (grid0.coords t) (ix2 q k) = true := by
        rw [Window.moved_iff]
        intro a
        match a with
        | ⟨0, _⟩ => exact hq
        | ⟨1, _⟩ => show k.val < win0_2.xsize (grid0.coords t) 1; rw [e1]; exact k.isLt
      unfold Window.fill
      rw [dif_pos hm, dif_pos hm])
    (win0_3.xinj (grid0.coords t) j) (by
      show (j 1).val < win0_2.xsize (grid0.coords t) 0
      rw [e2, ← e3]; exact (j 1).isLt)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the tile's and the result's buffers stated on the part inside the arrays only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ d, owns (c : Thread nD τ) (st0_3 t) fullShare
        (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel (F := Ideal) c Set.univ (grid0.coords t) _ _ _ _ _ _ _ _
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]; · rw [after0_1]; iexact H1
  isplitl [H2]
  · iexists d2
    rw [after0_2, show win0_2.cut (grid0.coords t) (wtile m c t) = iblk m c 2 t from win0_2.cut_fill _ _ _]
    iexact H2
  · iexists k0_pay1 (iblk m c 0 t) (win0_2.fill (grid0.coords t) d2 (iblk m c 2 t)) (iblk m c 1 t)
    rw [after0_3]
    unfold wtile
    rw [win0_3.fill_congr_cut (grid0.coords t) (cut_pay m c t _ _ _ _)]
    iexact H3

theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates; each array of the pipeline ends at what the library computes
    from the proof data, every other unscoped buffer as the host lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the two argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Run

end
-- ==== Proof.IdealValue.lean ====
/-
  What the idealized kernel's result array holds after the run.

  Point `t` writes back the columns `512·t ‥` of the result that exist; entry `(p, q)` of what it writes is row `p` of
  the activations against the quantised weight row `512·t + q`. These column blocks cover the 50257 columns (column
  `v` belongs to point `v / 512`), so the result array `[4096, 50257]` ends at entry `(r, v)` holding
  `Σ_k x2[r, k] · quant(γ, w[v, k])`, where `x2` is the activations flattened to 4096 rows and `γ` the host's scale.
  The host then reshapes the result to `[2, 2048, 50257]`: entry `(b, s, v)` is entry `(2048·b + s, v)`, and row
  `2048·b + s` of `x2` is row `(b, s)` of `x`.
-/
import proofs.«137710_j77464030151266_1_alg».proof.Proof.IdealRun
import Idealize.ShloMosaic.Lib.StableHlo.Run
import Idealize.ShloMosaic.Lib.Pipeline.Value

set_option maxRecDepth 16384

noncomputable section

open scoped BigOperators

namespace Cert.KernelIdeal.Final

open Cert.KernelIdeal Cert.KernelIdeal.Gen Cert.KernelIdeal.Run
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The block indices over the grid -/

/-- The scale's and the activations' windows stay at block 0; the weight tile moves down the rows and the result's
    block along the columns, one block per point. -/
theorem idx_facts : ∀ t : Fin cfg0.N,
    win0_0.index t 0 = 0 ∧ win0_0.index t 1 = 0 ∧ win0_1.index t 0 = 0 ∧ win0_1.index t 1 = 0
      ∧ win0_2.index t 0 = t.val ∧ win0_2.index t 1 = 0 ∧ win0_3.index t 0 = 0 ∧ win0_3.index t 1 = t.val :=
  (by decide +kernel : ∀ t : Fin grid0.N,
    win0_0.index t 0 = 0 ∧ win0_0.index t 1 = 0 ∧ win0_1.index t 0 = 0 ∧ win0_1.index t 1 = 0
      ∧ win0_2.index t 0 = t.val ∧ win0_2.index t 1 = 0 ∧ win0_3.index t 0 = 0 ∧ win0_3.index t 1 = t.val)

/-! ## The result array, in closed form -/

/-- Small sums of offsets, as the blocks' coordinates spell them. -/
theorem off0 (p : Nat) : 0 * 4096 + 1 * p = p := by omega
theorem off0' (k : Nat) : 0 * 2048 + 1 * k = k := by omega
theorem offT (tv q : Nat) : tv * 512 + 1 * q = tv * 512 + q := by omega

/-- The activation matrix, the scale's one-word array and the weights, as the region finds them. -/
def xs (c : Dev nD) : S4096x2048.Idx → EReal := V m c main_v6
def gs (c : Dev nD) : S1x1.Idx → EReal := V m c main_v4
def ws (c : Dev nD) : S50257x2048.Idx → EReal := V m c main_arg1

/-- Entry `(r, v)` of the result array: row `r` of the activation matrix as the region finds it against the quantised
    weight row `v`, at the scale the one-word array holds. -/
def G2 (c : Dev nD) : S4096x50257.Idx → EReal := fun i =>
  ∑ k : Fin 2048, xs m c (ix2 (i 0) k) * Cert.Spec.qv (gs m c (ix2 0 0)) (ws m c (ix2 (i 1) k))

/-- One entry of what the body leaves at point `t`, in a column `q` that exists, is the entry of `G2` in the same row
    and in column `512·t + q`: the scale's word is the scale array's, row `p` of the activations' buffer is row `p`
    of the matrix, and row `q` of the tile's buffer is weight row `512·t + q`. -/
theorem entry (c : Dev nD) (t : Fin cfg0.N) (i : S4096x512.Idx) (hi : (i 1).val < win0_2.xsize (grid0.coords t) 0)
    (y : S4096x50257.Idx) (h0 : (y 0).val = (i 0).val) (h1 : (y 1).val = t.val * 512 + (i 1).val) :
    k0_pay1 (iblk m c 0 t) (wtile m c t) (iblk m c 1 t) i = G2 m c y := by
  obtain ⟨i00, i01, i10, i11, i20, i21, i30, i31⟩ := idx_facts t
  obtain ⟨e1, e0, e2, e3⟩ := extents t
  obtain ⟨p, q, rfl⟩ : ∃ (p : Fin 4096) (q : Fin 512), i = ix2 p q := ⟨i 0, i 1, eq_ix2 i⟩
  have h0' : (y 0).val = p.val := h0
  have h1' : (y 1).val = t.val * 512 + q.val := h1
  have hi' : q.val < win0_2.xsize (grid0.coords t) 0 := hi
  rw [PayAt.pay_at]
  unfold G2
  refine Finset.sum_congr rfl fun k _ => ?_
  have f1 : iblk m c 1 t (ix2 p k) = xs m c (ix2 (y 0) k) := by
    show V m c main_v6 (((cfg0.win 1).blk t).view.emb (ix2 p k)) = V m c main_v6 (ix2 (y 0) k)
    refine congrArg (V m c main_v6) (funext fun a => Fin.ext ?_)
    match a with
    | ⟨0, _⟩ =>
      show win0_1.index t 0 * 4096 + 1 * p.val = (y 0).val
      rw [i10, h0']; exact off0 _
    | ⟨1, _⟩ =>
      show win0_1.index t 1 * 2048 + 1 * k.val = k.val
      rw [i11]; exact off0' _
  have f0 : iblk m c 0 t (ix2 0 0) = gs m c (ix2 0 0) := by
    show V m c main_v4 (((cfg0.win 0).blk t).view.emb (ix2 0 0)) = V m c main_v4 (ix2 0 0)
    refine congrArg (V m c main_v4) (funext fun a => Fin.ext ?_)
    match a with
    | ⟨0, _⟩ => show win0_0.index t 0 * 1 + 1 * 0 = 0; rw [i00]
    | ⟨1, _⟩ => show win0_0.index t 1 * 1 + 1 * 0 = 0; rw [i01]
  have hm : win0_2.moved (grid0.coords t) (ix2 q k) = true := by
    rw [Window.moved_iff]
    intro a
    match a with
    | ⟨0, _⟩ => exact hi'
    | ⟨1, _⟩ => show k.val < win0_2.xsize (grid0.coords t) 1; rw [e1]; exact k.isLt
  have f2 : wtile m c t (ix2 q k) = ws m c (ix2 (y 1) k) := by
    unfold wtile Window.fill
    rw [dif_pos hm]
    show V m c main_arg1 (((cfg0.win 2).blk t).view.emb _) = V m c main_arg1 (ix2 (y 1) k)
    refine congrArg (V m c main_arg1) (funext fun a => Fin.ext ?_)
    match a with
    | ⟨0, _⟩ =>
      show win0_2.index t 0 * 512 + 1 * q.val = (y 1).val
      rw [i20, h1']; exact offT _ _
    | ⟨1, _⟩ =>
      show win0_2.index t 1 * 2048 + 1 * k.val = k.val
      rw [i21]; exact off0' _
  rw [f0, f1, f2]

/-- WHAT POINT `t` WRITES BACK is block `t` of `G2`. -/
theorem flushed_eq (c : Dev nD) (t : Fin cfg0.N) :
    (dats m 0 c).flushed 3 t = ((cfg0.win 3).blk t).view.read (Elt Ideal) (G2 m c) := by
  show (cfg0.win 3).cut (grid0.coords t) ((dats m 0 c).after 3 t) = _
  rw [after0_3]
  obtain ⟨i00, i01, i10, i11, i20, i21, i30, i31⟩ := idx_facts t
  obtain ⟨e1, e0, e2, e3⟩ := extents t
  funext j
  exact entry m c t (win0_3.xinj (grid0.coords t) j)
    (by show (j 1).val < win0_2.xsize (grid0.coords t) 0; rw [e2, ← e3]; exact (j 1).isLt)
    (((cfg0.win 3).blk t).view.emb j)
    (by show win0_3.index t 0 * 4096 + 1 * (j 0).val = (j 0).val; rw [i30]; exact off0 _)
    (by show win0_3.index t 1 * 512 + 1 * (j 1).val = t.val * 512 + (j 1).val; rw [i31]; exact offT _ _)

/-- An index of the result array is in point `t`'s block iff its column is among the block's columns that exist. -/
theorem mem_blk (t : Fin cfg0.N) (i : S4096x50257.Idx) :
    i ∈ ((cfg0.win 3).blk t).view.set
      ↔ t.val * 512 ≤ (i 1).val ∧ (i 1).val < t.val * 512 + min 512 (50257 - t.val * 512) := by
  show i ∈ ((View.whole main_v7).slice (win0_3.rect t)).set ↔ _
  rw [View.set_slice_whole, Rect.mem_set_unit]
  obtain ⟨i00, i01, i10, i11, i20, i21, i30, i31⟩ := idx_facts t
  obtain ⟨e1, e0, e2, e3⟩ := extents t
  have h0 : (i 0).val < 4096 := (i 0).isLt
  constructor
  · intro h
    have h1 : win0_3.index t 1 * 512 ≤ (i 1).val ∧ (i 1).val < win0_3.index t 1 * 512 + win0_3.xsize (grid0.coords t) 1 := h 1
    rw [i31, e3] at h1
    exact h1
  · intro h a
    match a with
    | ⟨0, _⟩ =>
      show win0_3.index t 0 * 4096 ≤ (i 0).val ∧ (i 0).val < win0_3.index t 0 * 4096 + win0_3.xsize (grid0.coords t) 0
      rw [i30, e0]
      exact ⟨by rw [Nat.zero_mul]; exact Nat.zero_le _, by rw [Nat.zero_mul, Nat.zero_add]; exact h0⟩
    | ⟨1, _⟩ =>
      show win0_3.index t 1 * 512 ≤ (i 1).val ∧ (i 1).val < win0_3.index t 1 * 512 + win0_3.xsize (grid0.coords t) 1
      rw [i31, e3]; exact h

/-- Every column belongs to some point's block: column `v` to point `v / 512`. -/
theorem cover (i : S4096x50257.Idx) :
    ∃ t : Fin cfg0.N, (cfg0.win 3).flush t = true ∧ i ∈ ((cfg0.win 3).blk t).view.set := by
  have h1 : (i 1).val < 50257 := (i 1).isLt
  refine ⟨⟨(i 1).val / 512, lt_of_lt_of_eq (show (i 1).val / 512 < 99 by omega) N_0.symm⟩, flush0_3 _, ?_⟩
  rw [mem_blk]
  show (i 1).val / 512 * 512 ≤ (i 1).val ∧ (i 1).val < (i 1).val / 512 * 512 + min 512 (50257 - (i 1).val / 512 * 512)
  omega

/-- THE RESULT ARRAY after the run. -/
theorem final (c : Dev nD) : (dats m 0 c).arrAt 3 cfg0.N = G2 m c :=
  (dats m 0 c).arrAt_eq_of_cover 3 (G2 m c) (fun t _ => flushed_eq m c t) (cover)

end Cert.KernelIdeal.Final

end
-- ==== Proof.IdealResult.lean ====
/-
  The idealized kernel's result, as the specification's function of the two argument arrays.

  Around the region the host computes the scale `γ` from the weights (stored as a one-word array), flattens the
  activations to 4096 rows (the change of float format is the identity on the extended reals), and after the region
  reshapes the result `[4096, 50257]` to `[2, 2048, 50257]`. Reading each of these at an index turns the result
  array's closed form into `Σ_k x[b, s, k] · quant(γ, w[v, k])`.
-/
import proofs.«137710_j77464030151266_1_alg».proof.Proof.IdealValue

set_option maxRecDepth 16384

noncomputable section

open scoped BigOperators

namespace Cert.KernelIdeal.Final

open Cert.KernelIdeal Cert.KernelIdeal.Gen Cert.KernelIdeal.Run
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The arrays the host wrote before the region -/

/-- The one-word scale array is the host's scale, recast to `[1, 1]`. -/
theorem V_v4 (c : Dev nD) : (V m c main_v4 : S1x1.Idx → EReal)
    = shapeCast S1x1 (Cert.Spec.gamArr reducesTo_S50257x2048_S_d0_1 h_S_ (m ((c : Thread nD τ).loc main_arg1))) shapeCasts_S_S1x1 := by
  show StableHlo.after hostOps0 (fun b => m (c, b)) (Proc.devRef .tc main_v4) = _
  after_results
  rfl

/-- The activation matrix the region stages is `x` flattened to 4096 rows. -/
theorem V_v6 (c : Dev nD) : (V m c main_v6 : S4096x2048.Idx → EReal)
    = (truncf (F := Ideal) .bf16 (shapeCast S4096x2048 (m ((c : Thread nD τ).loc main_arg0)) shapeCasts_S2x2048x2048_S4096x2048) bitsLt_bf16_f32 :
        FVec Ideal S4096x2048 .bf16) := by
  show StableHlo.after hostOps0 (fun b => m (c, b)) (Proc.devRef .tc main_v6) = _
  after_results
  rfl

/-- The scale's one word is `γ`. -/
theorem gs_at (c : Dev nD) : gs m c (ix2 0 0)
    = Cert.Spec.gam reducesTo_S50257x2048_S_d0_1 h_S_ (m ((c : Thread nD τ).loc main_arg1)) := by
  unfold gs
  rw [V_v4]
  exact shapeCast_apply _ shapeCasts_S_S1x1 (ix2 0 0) ix0 (by
    have h1 := (S_.rowMajor ix0).isLt
    have h2 := (S1x1.rowMajor (ix2 (0 : Fin 1) (0 : Fin 1))).isLt
    have n1 : S_.numel = 1 := by decide
    have n2 : S1x1.numel = 1 := by decide
    omega)

/-- Row `2048·b + s` of the flattened activations is row `(b, s)` of `x`. -/
theorem xs_at (c : Dev nD) (b : Fin 2) (s : Fin 2048) (k : Fin 2048) (r : Fin 4096) (hr : r.val = b.val * 2048 + s.val) :
    xs m c (ix2 r k) = m ((c : Thread nD τ).loc main_arg0) (ix3 b s k) := by
  unfold xs
  rw [V_v6]
  show shapeCast S4096x2048 (m ((c : Thread nD τ).loc main_arg0)) shapeCasts_S2x2048x2048_S4096x2048 (ix2 r k) = _
  exact shapeCast_apply _ shapeCasts_S2x2048x2048_S4096x2048 (ix2 r k) (ix3 b s k) (by
    rw [Shape.rowMajor_val_three, Shape.rowMajor_val_two]
    show (b.val * 2048 + s.val) * 2048 + k.val = r.val * 2048 + k.val
    rw [hr])

/-! ## The result after the host's reshape -/

/-- The result buffer after the host line that follows the region: the result array, reshaped. -/
theorem tail_v8 (c : Dev nD) : Pipeline.afterTail₀ cfgs (dats m) 0 (V0 m) [hostOps1] c main_v8
    = shapeCast S2x2048x50257 (G2 m c) shapeCasts_S4096x50257_S2x2048x50257 := by
  unfold Pipeline.afterTail₀
  show StableHlo.after hostOps1 _ (Proc.devRef .tc main_v8) = _
  after_results
  have e := (Pipeline.withArrays_arr spec0 launch0.win.arr_inj c (V0 m c)
    (fun w => (dats m 0 c).arrAt w cfg0.N) 3).trans (final m c)
  exact congrArg (fun X => shapeCast S2x2048x50257 X shapeCasts_S4096x50257_S2x2048x50257) e

/-- The reshaped result is the specification's function of the argument arrays. -/
theorem result_eq (c : Dev nD) :
    shapeCast S2x2048x50257 (G2 m c) shapeCasts_S4096x50257_S2x2048x50257
      = Cert.Spec.G reducesTo_S50257x2048_S_d0_1 h_S_ (m ((c : Thread nD τ).loc main_arg0)) (m ((c : Thread nD τ).loc main_arg1)) := by
  funext i
  obtain ⟨b, s, v, rfl⟩ : ∃ (b : Fin 2) (s : Fin 2048) (v : Fin 50257), i = ix3 b s v := ⟨i 0, i 1, i 2, eq_ix3 i⟩
  have hr : b.val * 2048 + s.val < 4096 := by have := b.isLt; have := s.isLt; omega
  rw [shapeCast_apply (G2 m c) shapeCasts_S4096x50257_S2x2048x50257 (ix3 b s v) (ix2 (⟨b.val * 2048 + s.val, hr⟩ : Fin 4096) v) (by
    rw [Shape.rowMajor_val_three, Shape.rowMajor_val_two]
    show (b.val * 2048 + s.val) * 50257 + v.val = (b.val * 2048 + s.val) * 50257 + v.val
    rfl)]
  unfold G2 Cert.Spec.G
  refine Finset.sum_congr rfl fun k _ => ?_
  rw [gs_at, xs_at m c b s k ⟨b.val * 2048 + s.val, hr⟩ rfl]
  unfold ws
  rw [V_main_arg1]

/-! ## The run, read -/

/-- Every weakly fair execution of the idealized kernel terminates with its result at the specification's function of
    the argument arrays, and the argument arrays as launched. -/
theorem run : θ_run defs (onTc (τ := τ) (main (F := Ideal))) ⟨m, fun _ => 0, ρ⟩ fun r => ∀ c : Dev nD,
      r.2.mem ((c.tc : Thread nD τ).loc main_v8)
        = Cert.Spec.G reducesTo_S50257x2048_S_d0_1 h_S_ (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(((h c).2 main_v8 (Pipeline.mem_restRefs_of main_v8 (by decide) (by decide))).trans (tail_v8 m c)).trans (result_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c)))⟩)
    (run_main m ρ)

end Cert.KernelIdeal.Final

end
-- ==== Proof.RefValue.lean ====
/-
  The reference's result, read index by index, is the specification function `Cert.Spec.G`.

  The reference contracts the last axis of `x` against the last axis of the quantised weights, so its entry at
  `(b, s, v)` is the sum over `k` of `x[b, s, k]` times the quantised `w[v, k]`; the quantised weight is
  `min 1 (max (-1) (roundeven (w / γ))) · γ` with the scale `γ` broadcast from one rank-0 array. Nothing is
  re-ordered: the two terms agree summand by summand.
-/
import proofs.«137710_j77464030151266_1_alg».proof.Proof.Gen.ReferenceIdeal.Read
import proofs.«137710_j77464030151266_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The left operand of the contraction is read at `(b, s, k)`. -/
theorem lidx_eq (i : S2x2048x50257.Idx) (k : Fin 2048) :
    lidx_main_v10 i k = ix3 (n0 := 2) (n1 := 2048) (n2 := 2048) (i 0) (i 1) k :=
  funext fun a => Fin.ext (by
    match a with
    | ⟨0, _⟩ => rfl
    | ⟨1, _⟩ => rfl
    | ⟨2, _⟩ => rfl)

/-- The right operand of the contraction is read at `(v, k)`. -/
theorem ridx_eq (i : S2x2048x50257.Idx) (k : Fin 2048) :
    ridx_main_v10 i k = ix2 (n0 := 50257) (n1 := 2048) (i 2) k :=
  funext fun a => Fin.ext (by
    match a with
    | ⟨0, _⟩ => rfl
    | ⟨1, _⟩ => rfl)

/-- The scale the reference broadcasts is the specification's `γ`. -/
theorem scale_eq (x1 : (⟨S50257x2048, .f32⟩ : BufTy).Contents (Elt Ideal)) (j : S_.Idx) :
    val_main_v3 (F := Ideal) x1 j = Cert.Spec.gam reducesTo_S50257x2048_S_d0_1 h_S_ x1 := by
  rw [eq_ix0 j]
  rfl

/-- One quantised weight of the reference is `qv γ w[j]`. -/
theorem quant_eq (x1 : (⟨S50257x2048, .f32⟩ : BufTy).Contents (Elt Ideal)) (j : S50257x2048.Idx) :
    val_main_v9 (F := Ideal) x1 j
      = Cert.Spec.qv (Cert.Spec.gam reducesTo_S50257x2048_S_d0_1 h_S_ x1) (x1 j) := by
  rw [val_main_v9_apply, val_main_v7_apply, val_main_call1_v4_apply, val_main_call1_v3_apply, val_main_cst_3_apply,
    val_main_call1_v2_apply, val_main_call1_v1_apply, val_main_call1_v0_apply, val_main_cst_2_apply,
    val_main_v6_apply, val_main_v5_apply, val_main_v4_apply, val_main_v8_apply, scale_eq]
  rfl

/-- The reference's result is `G`: at `(b, s, v)` both are the sum over `k` of `x[b, s, k] · qv γ w[v, k]`, the
    same summands in the same order. -/
theorem result_eq (x0 : (⟨S2x2048x2048, .f32⟩ : BufTy).Contents (Elt Ideal))
    (x1 : (⟨S50257x2048, .f32⟩ : BufTy).Contents (Elt Ideal)) :
    Cert.ReferenceIdeal.Read.val_main_v10 (F := Ideal) x0 x1
      = Cert.Spec.G reducesTo_S50257x2048_S_d0_1 h_S_ x0 x1 := by
  funext i
  rw [val_main_v10_apply]
  unfold Cert.Spec.G
  refine Finset.sum_congr rfl fun k _ => ?_
  rw [lidx_eq, ridx_eq, quant_eq]

end Cert.ReferenceIdeal.RefValue

end
-- ==== Proof.lean ====
/-
  The certificate's five claims.

  Both programs compute, at result entry `(b, s, v)`, the sum over `k` of `x[b, s, k]` times the ternary-quantised
  weight `w[v, k]` at the scale `γ = max (mean |w|, ε)` (the function `Cert.Spec.G`). The reference does it with one
  contraction on the host. The kernel walks the 50257 weight rows in 99 tiles of 512 (the last holds 81 rows and
  overhangs the matrix), quantises each tile and multiplies the resident activations by it; column `q` of a tile's
  product reads row `q` of the tile only, so the columns written back never see the overhang. Over the extended reals
  the two results are the same sums, term by term; no finiteness of the inputs is used.

  The three frames: each program terminates without a fault and leaves its two argument arrays as launched. The
  idealization rewrote nothing, so the preservation claim has no conjunct.
-/
import proofs.«137710_j77464030151266_1_alg».proof.Defs
import proofs.«137710_j77464030151266_1_alg».proof.Proof.Gen.Kernel
import proofs.«137710_j77464030151266_1_alg».proof.Proof.Gen.Kernel.Skeleton
import proofs.«137710_j77464030151266_1_alg».proof.Proof.Gen.Kernel.Launch
import proofs.«137710_j77464030151266_1_alg».proof.Proof.Gen.Kernel.Points
import proofs.«137710_j77464030151266_1_alg».proof.Proof.Gen.Kernel.Frame
import proofs.«137710_j77464030151266_1_alg».proof.Proof.Gen.KernelIdeal
import proofs.«137710_j77464030151266_1_alg».proof.Proof.Gen.KernelIdeal.Skeleton
import proofs.«137710_j77464030151266_1_alg».proof.Proof.Gen.KernelIdeal.Launch
import proofs.«137710_j77464030151266_1_alg».proof.Proof.Gen.KernelIdeal.Points
import proofs.«137710_j77464030151266_1_alg».proof.Proof.Gen.KernelIdeal.Frame
import proofs.«137710_j77464030151266_1_alg».proof.Proof.Gen.ReferenceIdeal
import proofs.«137710_j77464030151266_1_alg».proof.Proof.Gen.Pre_finite_inputs
import proofs.«137710_j77464030151266_1_alg».proof.Proof.Gen.ReferenceIdeal.Run
import proofs.«137710_j77464030151266_1_alg».proof.Proof.Gen.ReferenceIdeal.Read
import proofs.«137710_j77464030151266_1_alg».proof.Proof.KernelRun
import proofs.«137710_j77464030151266_1_alg».proof.Proof.IdealResult
import proofs.«137710_j77464030151266_1_alg».proof.Proof.RefValue
import Idealize.ShloMosaic.Adequacy
import Idealize.ShloMosaic.Init

noncomputable section

namespace Cert.Proof

open Idealize.ShloMosaic Idealize.SL.Sem

/-- The kernel at the machine's words terminates and keeps its arguments. -/
theorem frame_k : Cert.frame_Kernel := fun m ρ _ => Cert.Kernel.Run.frame (F := Bits) m ρ

/-- So does the idealized kernel. -/
theorem frame_ki : Cert.frame_KernelIdeal := fun m ρ _ => Cert.KernelIdeal.Run.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `w` both programs end with the result `Cert.Spec.G x w`. -/
theorem algebraic : Cert.algebraic_KernelIdeal_ReferenceIdeal := by
  intro m ρ m' ρ' _ hagree
  refine ⟨fun c => Cert.Spec.G Cert.KernelIdeal.Gen.reducesTo_S50257x2048_S_d0_1 Cert.KernelIdeal.Gen.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
